-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x1024x64 : Shape := ⟨4, ![4, 8, 1024, 64]⟩
abbrev S4x8x1024x1024 : Shape := ⟨4, ![4, 8, 1024, 1024]⟩
abbrev S4x1x1024x1024 : Shape := ⟨4, ![4, 1, 1024, 1024]⟩
abbrev S_ : Shape := ⟨0, ![]⟩

class Facts : Prop where
  bcast_S_S4x8x1024x64 : S_.BroadcastsInDim S4x8x1024x64 (![] : Fin 0 → Fin S4x8x1024x64.rank)
  reducesTo_S4x8x1024x64_S_d0_1_2_3 : S4x8x1024x64.ReducesTo [0, 1, 2, 3] S_
  h_S_ : 0 < S_.numel
  bcast_S_S4x8x1024x1024 : S_.BroadcastsInDim S4x8x1024x1024 (![] : Fin 0 → Fin S4x8x1024x1024.rank)
  reducesTo_S4x8x1024x1024_S_d0_1_2_3 : S4x8x1024x1024.ReducesTo [0, 1, 2, 3] S_

variable [Facts]

def fn_part1 {F : FTy → Type} [FloatOps F] (main_v13 : IVec S_ 1) (main_v16 : IVec S4x8x1024x1024 1) : IVec S_ 1 :=
  let main_c_5 : IVec S_ 1 := constantI S_ 1 1#1
  let main_v17 : IVec S_ 1 := (fun x v => Host.reduce IntOp.andi x v reducesTo_S4x8x1024x1024_S_d0_1_2_3 h_S_) main_v16 main_c_5
  let main_v18 : IVec S_ 1 := andi main_v13 main_v17
  main_v18

def fn {F : FTy → Type} [FloatOps F] (main_arg0 : FVec F S4x8x1024x64 .f32) (main_arg1 : FVec F S4x8x1024x64 .f32) (main_arg2 : FVec F S4x8x1024x64 .f32) (main_arg3 : FVec F S4x8x1024x1024 .f32) (main_arg4 : IVec S4x1x1024x1024 32) : IVec S_ 1 :=
  let main_v0 : FVec F S4x8x1024x64 .f32 := Host.absf main_arg0
  let main_cst : FVec F S_ .f32 := constant S_ .f32 0x7F800000#32
  let main_v1 : FVec F S4x8x1024x64 .f32 := broadcastInDim S4x8x1024x64 ![] bcast_S_S4x8x1024x64 main_cst
  let main_v2 : IVec S4x8x1024x64 1 := cmpf .olt main_v0 main_v1
  let main_c : IVec S_ 1 := constantI S_ 1 1#1
  let main_v3 : IVec S_ 1 := (fun x v => Host.reduce IntOp.andi x v reducesTo_S4x8x1024x64_S_d0_1_2_3 h_S_) main_v2 main_c
  let main_v4 : FVec F S4x8x1024x64 .f32 := Host.absf main_arg1
  let main_cst_0 : FVec F S_ .f32 := constant S_ .f32 0x7F800000#32
  let main_v5 : FVec F S4x8x1024x64 .f32 := broadcastInDim S4x8x1024x64 ![] bcast_S_S4x8x1024x64 main_cst_0
  let main_v6 : IVec S4x8x1024x64 1 := cmpf .olt main_v4 main_v5
  let main_c_1 : IVec S_ 1 := constantI S_ 1 1#1
  let main_v7 : IVec S_ 1 := (fun x v => Host.reduce IntOp.andi x v reducesTo_S4x8x1024x64_S_d0_1_2_3 h_S_) main_v6 main_c_1
  let main_v8 : IVec S_ 1 := andi main_v3 main_v7
  let main_v9 : FVec F S4x8x1024x64 .f32 := Host.absf main_arg2
  let main_cst_2 : FVec F S_ .f32 := constant S_ .f32 0x7F800000#32
  let main_v10 : FVec F S4x8x1024x64 .f32 := broadcastInDim S4x8x1024x64 ![] bcast_S_S4x8x1024x64 main_cst_2
  let main_v11 : IVec S4x8x1024x64 1 := cmpf .olt main_v9 main_v10
  let main_c_3 : IVec S_ 1 := constantI S_ 1 1#1
  let main_v12 : IVec S_ 1 := (fun x v => Host.reduce IntOp.andi x v reducesTo_S4x8x1024x64_S_d0_1_2_3 h_S_) main_v11 main_c_3
  let main_v13 : IVec S_ 1 := andi main_v8 main_v12
  let main_v14 : FVec F S4x8x1024x1024 .f32 := Host.absf main_arg3
  let main_cst_4 : FVec F S_ .f32 := constant S_ .f32 0x7F800000#32
  let main_v15 : FVec F S4x8x1024x1024 .f32 := broadcastInDim S4x8x1024x1024 ![] bcast_S_S4x8x1024x1024 main_cst_4
  let main_v16 : IVec S4x8x1024x1024 1 := cmpf .olt main_v14 main_v15
  fn_part1 (F := F) main_v13 main_v16
-- ==== Kernel.lean ====
abbrev S4x8x1024x64 : Shape := ⟨4, ![4, 8, 1024, 64]⟩
abbrev S4x8x1024x1024 : Shape := ⟨4, ![4, 8, 1024, 1024]⟩
abbrev S4x1x1024x1024 : Shape := ⟨4, ![4, 1, 1024, 1024]⟩
abbrev S1x1x512x64 : Shape := ⟨4, ![1, 1, 512, 64]⟩
abbrev S1x1x1024x64 : Shape := ⟨4, ![1, 1, 1024, 64]⟩
abbrev S1x1x512x1024 : Shape := ⟨4, ![1, 1, 512, 1024]⟩
abbrev S512x64 : Shape := ⟨2, ![512, 64]⟩
abbrev S1024x64 : Shape := ⟨2, ![1024, 64]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 14
  | .smem => 0
  | _ => 0

abbrev bufTy : (tb : Table) → Fin (tcTables nBuf tb) → BufTy
  | .hbm, ⟨0, _⟩ => ⟨S4x8x1024x64, .f32⟩
  | .hbm, ⟨1, _⟩ => ⟨S4x8x1024x64, .f32⟩
  | .hbm, ⟨2, _⟩ => ⟨S4x8x1024x64, .f32⟩
  | .hbm, ⟨3, _⟩ => ⟨S4x8x1024x1024, .f32⟩
  | .hbm, ⟨4, _⟩ => ⟨S4x1x1024x1024, .i32⟩
  | .hbm, ⟨5, _⟩ => ⟨S4x8x1024x64, .f32⟩
  | .hbm, ⟨6, _⟩ => ⟨S4x8x1024x1024, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x1024x64, .f32⟩
  | .local _ .vmem, ⟨3, _⟩ => ⟨S1x1x1024x64, .f32⟩
  | .local _ .vmem, ⟨4, _⟩ => ⟨S1x1x1024x64, .f32⟩
  | .local _ .vmem, ⟨5, _⟩ => ⟨S1x1x1024x64, .f32⟩
  | .local _ .vmem, ⟨6, _⟩ => ⟨S1x1x512x1024, .f32⟩
  | .local _ .vmem, ⟨7, _⟩ => ⟨S1x1x512x1024, .f32⟩
  | .local _ .vmem, ⟨8, _⟩ => ⟨S1x1x512x1024, .i32⟩
  | .local _ .vmem, ⟨9, _⟩ => ⟨S1x1x512x1024, .i32⟩
  | .local _ .vmem, ⟨10, _⟩ => ⟨S1x1x512x64, .f32⟩
  | .local _ .vmem, ⟨11, _⟩ => ⟨S1x1x512x64, .f32⟩
  | .local _ .vmem, ⟨12, _⟩ => ⟨S1x1x512x1024, .f32⟩
  | .local _ .vmem, ⟨13, _⟩ => ⟨S1x1x512x1024, .f32⟩
  | _, _ => ⟨S4x8x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 2, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

class Facts₀ : Prop where
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  inb_S1x1x512x1024_S1x1x512x1024_0_0_0_0 : ∀ a, (![0, 0, 0, 0] : Fin 4 → Nat) a + S1x1x512x1024.size a ≤ S1x1x512x1024.size a
  h_S1x1x512x1024 : 0 < S1x1x512x1024.numel
  shapeCasts_S1x1x512x1024_S512x1024 : S1x1x512x1024.ShapeCasts S512x1024
  bitsLt_bf16_f32 : FTy.bits .bf16 < FTy.bits .f32
  reduces_S512x1024_S512 : S512x1024.Reduces [1] S512
  shapeCasts_S512_S512x1 : S512.ShapeCasts S512x1
  broadcasts_S512x1_S512x1024 : S512x1.Broadcasts S512x1024
  shapeCasts_S512x1024_S1x1x512x1024 : S512x1024.ShapeCasts S1x1x512x1024
  shapeCasts_S512x64_S1x1x512x64 : S512x64.ShapeCasts S1x1x512x64
  dot_S512x64_S1024x64_S512x1024_1_1_0_0_n_n_wf : DotDims.WF S512x64 S1024x64 S512x1024 [1] [1] [0] [0] [] []
  dot_S512x1024_S1024x64_S512x64_1_0_0_1_n_n_wf : DotDims.WF S512x1024 S1024x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S4x8x1024x64.size a
  hwx0_0 : ∀ i : grid0.Coords, EltTy.bits .f32 = 32 ∨ (Rect.block (s := S4x8x1024x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x64.size a ≤ S4x8x1024x64.size a
  hwx0_1 : ∀ i : grid0.Coords, EltTy.bits .f32 = 32 ∨ (Rect.block (s := S4x8x1024x64) S1x1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024x64.size a ≤ S4x8x1024x64.size a
  hwx0_2 : ∀ i : grid0.Coords, EltTy.bits .f32 = 32 ∨ (Rect.block (s := S4x8x1024x64) S1x1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x1024.size a ≤ S4x8x1024x1024.size a
  hwx0_3 : ∀ i : grid0.Coords, EltTy.bits .f32 = 32 ∨ (Rect.block (s := S4x8x1024x1024) S1x1x512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x1024.size a ≤ S4x1x1024x1024.size a
  hwx0_4 : ∀ i : grid0.Coords, EltTy.bits .i32 = 32 ∨ (Rect.block (s := S4x1x1024x1024) S1x1x512x1024.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x64.size a ≤ S4x8x1024x64.size a
  hwx0_5 : ∀ i : grid0.Coords, EltTy.bits .f32 = 32 ∨ (Rect.block (s := S4x8x1024x64) S1x1x512x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x512x1024.size a ≤ S4x8x1024x1024.size a
  hwx0_6 : ∀ i : grid0.Coords, EltTy.bits .f32 = 32 ∨ (Rect.block (s := S4x8x1024x1024) S1x1x512x1024.size (cc0_transform_6 i) (hinb0_6 i)).WholeWords (EltTy.packing .f32)

variable [Facts₀]

def dot_S512x64_S1024x64_S512x1024_1_1_0_0_n_n : DotDims S512x64 S1024x64 S512x1024 where
  lhsContracting := [1]
  rhsContracting := [1]
  lhsNonContracting := [0]
  rhsNonContracting := [0]
  lhsBatch := []
  rhsBatch := []
  wf := dot_S512x64_S1024x64_S512x1024_1_1_0_0_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1x512x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S1x1x512x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S1x1x512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x8x1024x64 : Shape := ⟨4, ![4, 8, 1024, 64]⟩
abbrev S4x8x1024x1024 : Shape := ⟨4, ![4, 8, 1024, 1024]⟩
abbrev S4x1x1024x1024 : Shape := ⟨4, ![4, 1, 1024, 1024]⟩
abbrev S_ : Shape := ⟨0, ![]⟩
abbrev S4x8x1024 : Shape := ⟨3, ![4, 8, 1024]⟩
abbrev S4x8x1024x1 : Shape := ⟨4, ![4, 8, 1024, 1]⟩

abbrev nBuf : Space → Nat
  | .hbm => 33
  | .vmem => 0
  | .smem => 0
  | _ => 0

abbrev bufTy : (tb : Table) → Fin (tcTables nBuf tb) → BufTy
  | .hbm, ⟨0, _⟩ => ⟨S4x8x1024x64, .f32⟩
  | .hbm, ⟨1, _⟩ => ⟨S4x8x1024x64, .f32⟩
  | .hbm, ⟨2, _⟩ => ⟨S4x8x1024x64, .f32⟩
  | .hbm, ⟨3, _⟩ => ⟨S4x8x1024x1024, .f32⟩
  | .hbm, ⟨4, _⟩ => ⟨S4x1x1024x1024, .i32⟩
  | .hbm, ⟨5, _⟩ => ⟨S_, .f32⟩
  | .hbm, ⟨6, _⟩ => ⟨S4x8x1024x64, .f32⟩
  | .hbm, ⟨7, _⟩ => ⟨S4x8x1024x64, .f32⟩
  | .hbm, ⟨8, _⟩ => ⟨S4x8x1024x1024, .f32⟩
  | .hbm, ⟨9, _⟩ => ⟨S4x8x1024x1024, .f32⟩
  | .hbm, ⟨10, _⟩ => ⟨S_, .i32⟩
  | .hbm, ⟨11, _⟩ => ⟨S4x1x1024x1024, .i32⟩
  | .hbm, ⟨12, _⟩ => ⟨S4x1x1024x1024, .i1⟩
  | .hbm, ⟨13, _⟩ => ⟨S_, .f32⟩
  | .hbm, ⟨14, _⟩ => ⟨S_, .f32⟩
  | .hbm, ⟨15, _⟩ => ⟨S4x8x1024x1024, .i1⟩
  | .hbm, ⟨16, _⟩ => ⟨S4x8x1024x1024, .f32⟩
  | .hbm, ⟨17, _⟩ => ⟨S4x8x1024x1024, .f32⟩
  | .hbm, ⟨18, _⟩ => ⟨S_, .f32⟩
  | .hbm, ⟨19, _⟩ => ⟨S4x8x1024, .f32⟩
  | .hbm, ⟨20, _⟩ => ⟨S_, .f32⟩
  | .hbm, ⟨21, _⟩ => ⟨S4x8x1024, .f32⟩
  | .hbm, ⟨22, _⟩ => ⟨S4x8x1024, .f32⟩
  | .hbm, ⟨23, _⟩ => ⟨S4x8x1024x1, .f32⟩
  | .hbm, ⟨24, _⟩ => ⟨S4x8x1024x1024, .f32⟩
  | .hbm, ⟨25, _⟩ => ⟨S4x8x1024x1024, .f32⟩
  | .hbm, ⟨26, _⟩ => ⟨S4x8x1024x1024, .f32⟩
  | .hbm, ⟨27, _⟩ => ⟨S_, .f32⟩
  | .hbm, ⟨28, _⟩ => ⟨S4x8x1024, .f32⟩
  | .hbm, ⟨29, _⟩ => ⟨S4x8x1024x1, .f32⟩
  | .hbm, ⟨30, _⟩ => ⟨S4x8x1024x1024, .f32⟩
  | .hbm, ⟨31, _⟩ => ⟨S4x8x1024x1024, .f32⟩
  | .hbm, ⟨32, _⟩ => ⟨S4x8x1024x64, .f32⟩
  | _, _ => ⟨S4x8x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]

class Facts₀ : Prop where
  bcast_S_S4x8x1024x64 : S_.BroadcastsInDim S4x8x1024x64 (![] : Fin 0 → Fin S4x8x1024x64.rank)
  bcast_S_S4x1x1024x1024 : S_.BroadcastsInDim S4x1x1024x1024 (![] : Fin 0 → Fin S4x1x1024x1024.rank)
  bcast_S4x1x1024x1024_S4x8x1024x1024_0_1_2_3 : S4x1x1024x1024.BroadcastsInDim S4x8x1024x1024 (![0, 1, 2, 3] : Fin 4 → Fin S4x8x1024x1024.rank)
  bcast_S_S4x8x1024x1024 : S_.BroadcastsInDim S4x8x1024x1024 (![] : Fin 0 → Fin S4x8x1024x1024.rank)
  reducesTo_S4x8x1024x1024_S4x8x1024_d3 : S4x8x1024x1024.ReducesTo [3] S4x8x1024
  h_S_ : 0 < S_.numel
  bcast_S_S4x8x1024 : S_.BroadcastsInDim S4x8x1024 (![] : Fin 0 → Fin S4x8x1024.rank)
  bcast_S4x8x1024_S4x8x1024x1_0_1_2 : S4x8x1024.BroadcastsInDim S4x8x1024x1 (![0, 1, 2] : Fin 3 → Fin S4x8x1024x1.rank)
  bcast_S4x8x1024x1_S4x8x1024x1024_0_1_2_3 : S4x8x1024x1.BroadcastsInDim S4x8x1024x1024 (![0, 1, 2, 3] : Fin 4 → Fin S4x8x1024x1024.rank)
  dot_S4x8x1024x64_S4x8x1024x64_S4x8x1024x1024_3_3_2_2_01_01_wf : DotDims.WF S4x8x1024x64 S4x8x1024x64 S4x8x1024x1024 [3] [3] [2] [2] [0, 1] [0, 1]
  dot_S4x8x1024x1024_S4x8x1024x64_S4x8x1024x64_3_2_2_3_01_01_wf : DotDims.WF S4x8x1024x1024 S4x8x1024x64 S4x8x1024x64 [3] [2] [2] [3] [0, 1] [0, 1]

variable [Facts₀]

def dot_S4x8x1024x64_S4x8x1024x64_S4x8x1024x1024_3_3_2_2_01_01 : DotDims S4x8x1024x64 S4x8x1024x64 S4x8x1024x1024 where
  lhsContracting := [3]
  rhsContracting := [3]
  lhsNonContracting := [2]
  rhsNonContracting := [2]
  lhsBatch := [0, 1]
  rhsBatch := [0, 1]
  wf := dot_S4x8x1024x64_S4x8x1024x64_S4x8x1024x1024_3_3_2_2_01_01_wf
def dot_S4x8x1024x1024_S4x8x1024x64_S4x8x1024x64_3_2_2_3_01_01 : DotDims S4x8x1024x1024 S4x8x1024x64 S4x8x1024x64 where
  lhsContracting := [3]
  rhsContracting := [2]
  lhsNonContracting := [2]
  rhsNonContracting := [3]
  lhsBatch := [0, 1]
  rhsBatch := [0, 1]
  wf := dot_S4x8x1024x1024_S4x8x1024x64_S4x8x1024x64_3_2_2_3_01_01_wf

class Facts : Prop extends Facts₀ where

variable [Facts]
-- ==== Proof.AttnSpec.lean ====
/-
  Masked, re-weighted softmax attention, one query row at a time, on the extended reals.

  A query row `qr : Fin 64 → EReal`, the keys `kk j d`, a row of weights `sr j` and a row of an integer mask
  `mr j` give a row of 1024 scores: the scaled inner product `Σ_d (qr d · c) · kk j d` times the weight, replaced
  by a large negative constant where the mask word is zero. The row's attention probabilities are the usual
  shifted softmax of that row — `exp (s j − max s)` over the sum of those exponentials —, the maximum taken from
  `−∞` over the row, and the output row is the probabilities' combination `Σ_j p j · vv j d` of the values.
  The constants are kept as the words the programs spell: they are never evaluated here.
-/
import Idealize.ShloMosaic.PureOps.Ideal
import Idealize.ShloMosaic.PureOps.Ideal.Laws
import Idealize.ShloMosaic.Lib.ValueIdx

noncomputable section

open scoped BigOperators

namespace Cert.Attn

open Idealize.ShloMosaic Idealize.ShloMosaic.ValueIdx

/-- The shapes of the arrays: queries, keys, values and output `[4, 8, 1024, 64]`; weights and probabilities
    `[4, 8, 1024, 1024]`; the mask `[4, 1, 1024, 1024]`, shared by the eight heads. -/
abbrev SQ : Shape := ⟨4, ![4, 8, 1024, 64]⟩
abbrev SS : Shape := ⟨4, ![4, 8, 1024, 1024]⟩
abbrev SM : Shape := ⟨4, ![4, 1, 1024, 1024]⟩

/-- One row of scores: at key `j` the scaled inner product of the query row with key `j`, times the weight at
    `j`, or the large negative constant where the mask word at `j` is zero. -/
def scoreRow (qr : Fin 64 → EReal) (kk : Fin 1024 → Fin 64 → EReal) (sr : Fin 1024 → EReal) (mr : Fin 1024 → BitVec 32)
    (j : Fin 1024) : EReal :=
  Scalar.select (IntOp.cmpi .eq (mr j) 0#32) (Ideal.ofBits .f32 0xCE6E6B28#32)
    ((∑ d : Fin 64, (qr d * Ideal.ofBits .f32 0x3E000000#32) * kk j d) * sr j)

/-- The maximum of a row of scores, taken from `−∞`. -/
def rowMax (s : Fin 1024 → EReal) : EReal :=
  (Finset.univ : Finset (Fin 1024)).fold max (Ideal.ofBits .f32 0xFF800000#32) s

/-- The shifted exponential of a row of scores. -/
def rowExp (s : Fin 1024 → EReal) (j : Fin 1024) : EReal := Ideal.exp (s j - rowMax s)

/-- The softmax of a row of scores. -/
def rowSoft (s : Fin 1024 → EReal) (j : Fin 1024) : EReal := Ideal.div (rowExp s j) (∑ j' : Fin 1024, rowExp s j')

/-- One row of attention probabilities. -/
def attnRow (qr : Fin 64 → EReal) (kk : Fin 1024 → Fin 64 → EReal) (sr : Fin 1024 → EReal) (mr : Fin 1024 → BitVec 32) :
    Fin 1024 → EReal :=
  rowSoft (scoreRow qr kk sr mr)

/-- One row of the output: the probabilities' combination of the values. -/
def outRow (qr : Fin 64 → EReal) (kk : Fin 1024 → Fin 64 → EReal) (sr : Fin 1024 → EReal) (mr : Fin 1024 → BitVec 32)
    (vv : Fin 1024 → Fin 64 → EReal) (d : Fin 64) : EReal :=
  ∑ j : Fin 1024, attnRow qr kk sr mr j * vv j d

/-- The probabilities as one array: entry `(b, h, r, j)` is row `(b, h, r)`'s probability of key `j`; the mask row
    is the one of batch `b` and query `r`, whatever the head. -/
def probs (q k : SQ.Idx → EReal) (sph : SS.Idx → EReal) (mask : SM.Idx → BitVec 32) : SS.Idx → EReal := fun i =>
  attnRow (fun d => q (ix4 (i 0) (i 1) (i 2) d)) (fun j d => k (ix4 (i 0) (i 1) j d))
    (fun j => sph (ix4 (i 0) (i 1) (i 2) j)) (fun j => mask (ix4 (i 0) (0 : Fin 1) (i 2) j)) (i 3)

/-- The output as one array: entry `(b, h, r, d)` is row `(b, h, r)`'s combination of the values' column `d`. -/
def output (q k v : SQ.Idx → EReal) (sph : SS.Idx → EReal) (mask : SM.Idx → BitVec 32) : SQ.Idx → EReal := fun i =>
  outRow (fun d => q (ix4 (i 0) (i 1) (i 2) d)) (fun j d => k (ix4 (i 0) (i 1) j d))
    (fun j => sph (ix4 (i 0) (i 1) (i 2) j)) (fun j => mask (ix4 (i 0) (0 : Fin 1) (i 2) j))
    (fun j d => v (ix4 (i 0) (i 1) j d)) (i 3)

end Cert.Attn

end
-- ==== Proof.LibCast4.lean ====
/-
  Two leading unit axes dropped or added by a shape cast, read at an index given by coordinates.

  A block `[1, 1, a, b]` of a rank-4 array and the matrix `[a, b]` it is computed with hold the same entries in the
  same row-major order: the cast either way reads, at `(i, j)`, the entry at `(0, 0, i, j)`. Stated at every extent,
  with both indices built by `ix2` / `ix4`, so they apply to a printed operation by unification.
-/
import Idealize.ShloMosaic.Lib.ValueIdx
import Idealize.ShloMosaic.Lib.Pipeline.Value

namespace Cert.LibCast4

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, w, i, j)`, the operand at `(i, j)`, whatever the unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    simp only [hu, hw, Nat.zero_mul, Nat.zero_add])

end Cert.LibCast4
-- ==== Proof.LibColumn.lean ====
/-
  Layout operations of "keepdims" row statistics, read at an index given by coordinates.

  A row statistic of an `[a, b]` array (a sum, a mean, a variance along the second axis) lives in an `[a]` array,
  is given a unit column axis, `[a, 1]`, and is spread back over the row, `[a, b]`; a per-feature parameter `[b]` is
  given a unit row axis `[1, b]` and spread over the rows. Each of these steps, in a kernel's vector spelling
  (`shapeCast`, `broadcastTo`) and in the host's (`broadcastInDim` with explicit axes), reads at `(p, c)` the
  operand at the evident coordinates. The lemmas are stated over indices built by `ix1` / `ix2` at every extent, so
  they apply to a printed operation by unification.
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[a] → [a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's `[a, 1] → [a, b]` along axes (0, 1) reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[b] → [1, b]` along axis 1 reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- The host's `[1, b] → [a, b]` along axes (0, 1) reads, at `(p, c)`, the one row at `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's spread of a rank-0 value over any shape reads, everywhere, that value. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun ax => ax.elim0

end Cert.LibColumn
-- ==== Proof.LibDot.lean ====
/-
  A rows-by-columns product read at an index.

  For dimension numbers that contract the left operand's second axis with the right operand's first (the plain
  `M × K` by `K × N` product), the sum over the contraction index that both the kernel's matrix unit and the
  host's `dot_general` denote on the extended reals is the familiar `Σ_k l (a, k) · r (k, b)`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : ℕ}

/-- The contraction sum of a plain product at output index `(a, b)` is the sum over `k : Fin K` of
    `l (a, k) · r (k, b)`. The dimension numbers are given by their six lists, as a printed record states them. -/
theorem sum_eq (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  obtain ⟨lc, rc, ln, rn, lb, rb, wf⟩ := D
  dsimp only at h1 h2 h3 h4 h5 h6
  subst h1 h2 h3 h4 h5 h6
  have hr : (DotDims.mk (sl := ⟨2, ![M, K]⟩) (sr := ⟨2, ![K, N]⟩) (so := ⟨2, ![M, N]⟩) [1] [0] [0] [1] [] [] wf).contr.rank = 1 := rfl
  have hs : (DotDims.mk (sl := ⟨2, ![M, K]⟩) (sr := ⟨2, ![K, N]⟩) (so := ⟨2, ![M, N]⟩) [1] [0] [0] [1] [] [] wf).contr.size ⟨0, by omega⟩ = K := rfl
  rw [← Equiv.sum_comp (contrEquiv1 _ K hr hs).symm]
  refine Finset.sum_congr rfl fun k _ => ?_
  have el : (DotDims.mk (sl := ⟨2, ![M, K]⟩) (sr := ⟨2, ![K, N]⟩) (so := ⟨2, ![M, N]⟩) [1] [0] [0] [1] [] [] wf).lhsIdx (ix2 a b) ((contrEquiv1 _ K hr hs).symm k) = ix2 a k := by
    funext d
    match d with
    | ⟨0, _⟩ => rfl
    | ⟨1, _⟩ =>
      refine Fin.ext ?_
      exact (DotDims.lhsIdx_val_of_single _ (cl := 1) rfl (ix2 a b) _).trans (contrEquiv1_symm_val _ K hr hs k)
  have er : (DotDims.mk (sl := ⟨2, ![M, K]⟩) (sr := ⟨2, ![K, N]⟩) (so := ⟨2, ![M, N]⟩) [1] [0] [0] [1] [] [] wf).rhsIdx (ix2 a b) ((contrEquiv1 _ K hr hs).symm k) = ix2 k b := by
    funext d
    match d with
    | ⟨0, _⟩ =>
      refine Fin.ext ?_
      exact (DotDims.rhsIdx_val_of_single _ (cr := 0) rfl (ix2 a b) _).trans (contrEquiv1_symm_val _ K hr hs k)
    | ⟨1, _⟩ => rfl
  rw [el, er]

end Idealize.ShloMosaic.PlainDot

end
-- ==== Proof.LibDotT.lean ====
/-
  A product of a rows-by-depth array with the TRANSPOSE of a columns-by-depth array, read at an index.

  For dimension numbers that contract the second axis of both operands (the `M × K` by `N × K` product `x · wᵀ`,
  what a linear layer with weights stored output-major computes), the sum over the contraction index that both the
  kernel's matrix unit and the host's `dot_general` denote on the extended reals is `Σ_k l (a, k) · r (b, k)`.
-/
import Idealize.ShloMosaic.PureOps.Ideal.Laws
import Idealize.ShloMosaic.Lib.ValueIdx

noncomputable section

open scoped BigOperators

namespace Cert.LibDotT

open Idealize.ShloMosaic Idealize.ShloMosaic.ValueIdx

variable {M K N : ℕ}

/-- The contraction sum of `x · wᵀ` at output index `(a, b)` is the sum over `k : Fin K` of `l (a, k) · r (b, k)`.
    The dimension numbers are given by their six lists, as a printed record states them. -/
theorem sum_eq (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (a : Fin M) (b : Fin N) :
    ∑ k : D.contr.Idx, l (D.lhsIdx (ix2 a b) k) * r (D.rhsIdx (ix2 a b) k) = ∑ k : Fin K, l (ix2 a k) * r (ix2 b k) := by
  obtain ⟨lc, rc, ln, rn, lb, rb, wf⟩ := D
  dsimp only at h1 h2 h3 h4 h5 h6
  subst h1 h2 h3 h4 h5 h6
  have hr : (DotDims.mk (sl := ⟨2, ![M, K]⟩) (sr := ⟨2, ![N, K]⟩) (so := ⟨2, ![M, N]⟩) [1] [1] [0] [0] [] [] wf).contr.rank = 1 := rfl
  have hs : (DotDims.mk (sl := ⟨2, ![M, K]⟩) (sr := ⟨2, ![N, K]⟩) (so := ⟨2, ![M, N]⟩) [1] [1] [0] [0] [] [] wf).contr.size ⟨0, by omega⟩ = K := rfl
  rw [← Equiv.sum_comp (contrEquiv1 _ K hr hs).symm]
  refine Finset.sum_congr rfl fun k _ => ?_
  have el : (DotDims.mk (sl := ⟨2, ![M, K]⟩) (sr := ⟨2, ![N, K]⟩) (so := ⟨2, ![M, N]⟩) [1] [1] [0] [0] [] [] wf).lhsIdx (ix2 a b) ((contrEquiv1 _ K hr hs).symm k) = ix2 a k := by
    funext d
    match d with
    | ⟨0, _⟩ => rfl
    | ⟨1, _⟩ =>
      refine Fin.ext ?_
      exact (DotDims.lhsIdx_val_of_single _ (cl := 1) rfl (ix2 a b) _).trans (contrEquiv1_symm_val _ K hr hs k)
  have er : (DotDims.mk (sl := ⟨2, ![M, K]⟩) (sr := ⟨2, ![N, K]⟩) (so := ⟨2, ![M, N]⟩) [1] [1] [0] [0] [] [] wf).rhsIdx (ix2 a b) ((contrEquiv1 _ K hr hs).symm k) = ix2 b k := by
    funext d
    match d with
    | ⟨0, _⟩ => rfl
    | ⟨1, _⟩ =>
      refine Fin.ext ?_
      exact (DotDims.rhsIdx_val_of_single _ (cr := 1) rfl (ix2 a b) _).trans (contrEquiv1_symm_val _ K hr hs k)
  rw [el, er]

end Cert.LibDotT

end
-- ==== Proof.AttnPay.lean ====
/-
  The kernel body's arithmetic, read at an index.

  At a grid point the body loads a `[1, 1, 512, 64]` block of queries, `[1, 1, 1024, 64]` blocks of keys and of
  values and `[1, 1, 512, 1024]` blocks of weights and of the mask. For each of the block's 512 query rows it forms
  the row of masked, weighted scores (a product with the transposed keys, the queries scaled first), the row's
  shifted softmax, and the row of the output (a plain product with the values). Read at coordinates, each stored
  value is the row function of the specification applied to the blocks' rows: entry `(p, j)` of the probabilities
  depends on row `p` of the query, weight and mask blocks and on every key; entry `(p, d)` of the output on the
  same and on column `d` of the values.
-/
import proofs.«146716_j66151086293333_2_alg».proof.Proof.Gen.KernelIdeal.Skeleton
import proofs.«146716_j66151086293333_2_alg».proof.Proof.AttnSpec
import proofs.«146716_j66151086293333_2_alg».proof.Proof.LibCast4
import proofs.«146716_j66151086293333_2_alg».proof.Proof.LibColumn
import proofs.«146716_j66151086293333_2_alg».proof.Proof.LibDot
import proofs.«146716_j66151086293333_2_alg».proof.Proof.LibDotT
import Idealize.ShloMosaic.PureOps.Ideal.Laws
import Idealize.ShloMosaic.Lib.ValueIdx
import Idealize.ShloMosaic.Lib.Pipeline.Value

noncomputable section

open scoped BigOperators

namespace Cert.AttnPay

open Cert.KernelIdeal Cert.KernelIdeal.Gen Idealize.ShloMosaic Idealize.ShloMosaic.ValueIdx Cert.Attn

/-! ## The two halves of the probabilities' computation -/

/-- The block's masked, weighted scores as a `[512, 1024]` matrix. -/
def scoresV (x0 : Vec Ideal S1x1x512x64 .f32) (x1 : Vec Ideal S1x1x1024x64 .f32) (x3 : Vec Ideal S1x1x512x1024 .f32)
    (x4 : Vec Ideal S1x1x512x1024 .i32) : FVec Ideal S512x1024 .f32 :=
  select (cmpi .eq (shapeCast S512x1024 x4 shapeCasts_S1x1x512x1024_S512x1024 : IVec S512x1024 32) (broadcast S512x1024 0#32))
    (broadcast S512x1024 (Scalar.ofBits .f32 0xCE6E6B28#32))
    (mulf (matmul dot_S512x64_S1024x64_S512x1024_1_1_0_0_n_n none
        (truncf .bf16 (mulf (shapeCast S512x64 x0 shapeCasts_S1x1x512x64_S512x64 : FVec Ideal S512x64 .f32)
          (broadcast S512x64 (Scalar.ofBits .f32 0x3E000000#32))) bitsLt_bf16_f32 : FVec Ideal S512x64 .bf16)
        (truncf .bf16 (shapeCast S1024x64 x1 shapeCasts_S1x1x1024x64_S1024x64 : FVec Ideal S1024x64 .f32) bitsLt_bf16_f32 : FVec Ideal S1024x64 .bf16)
        (constant S512x1024 .f32 0x00000000#32))
      (shapeCast S512x1024 x3 shapeCasts_S1x1x512x1024_S512x1024 : FVec Ideal S512x1024 .f32))

/-- A vector of 512 row statistics spread back over the rows of a `[512, 1024]` matrix. -/
def spread (c : FVec Ideal S512 .f32) : FVec Ideal S512x1024 .f32 :=
  broadcastTo S512x1024 (shapeCast S512x1 c shapeCasts_S512_S512x1 : FVec Ideal S512x1 .f32) broadcasts_S512x1_S512x1024

/-- The shifted exponentials of a `[512, 1024]` matrix of scores, row by row. -/
def expV (s : FVec Ideal S512x1024 .f32) : FVec Ideal S512x1024 .f32 :=
  exp (subf s (spread (multiReduction .maximumf [1] S512 s 0xFF800000#32 reduces_S512x1024_S512 (.inl rfl) rfl)))

/-- The softmax of a `[512, 1024]` matrix of scores, row by row. -/
def softV (s : FVec Ideal S512x1024 .f32) : FVec Ideal S512x1024 .f32 :=
  divf (expV s) (spread (multiReduction .add [1] S512 (expV s) 0x00000000#32 reduces_S512x1024_S512 (.inl rfl) rfl))

/-- The body's probabilities are the softmax of its scores. -/
theorem pay4_eq (x0 : Vec Ideal S1x1x512x64 .f32) (x1 : Vec Ideal S1x1x1024x64 .f32) (x3 : Vec Ideal S1x1x512x1024 .f32)
    (x4 : Vec Ideal S1x1x512x1024 .i32) : k0_pay4 x0 x1 x3 x4 = softV (scoresV x0 x1 x3 x4) := rfl

/-! ## Rows of a matrix through the reductions and the spread -/

/-- The index a reduction along the columns inserts: row `p`, column `k`. -/
theorem lift_row (p : Fin 512) (k : Fin 1024) : reduces_S512x1024_S512.lift (ix1 p) k = ix2 p k :=
  funext fun a => Fin.ext (by match a with | ⟨0, _⟩ => rfl | ⟨1, _⟩ => rfl)

/-- A spread statistic reads, anywhere in row `p`, the statistic of row `p`. -/
theorem spread_apply (c : FVec Ideal S512 .f32) (p : Fin 512) (j : Fin 1024) : spread c (ix2 p j) = c (ix1 p) :=
  (Cert.LibColumn.broadcastTo_a1_ab_apply _ broadcasts_S512x1_S512x1024 p j).trans
    (Cert.LibColumn.shapeCast_a_a1_apply c shapeCasts_S512_S512x1 p 0)

/-- The maximum along the columns, at row `p`, is the maximum of that row from `−∞`. -/
theorem rowMaxV_apply (s : FVec Ideal S512x1024 .f32) (p : Fin 512) :
    multiReduction .maximumf [1] S512 s 0xFF800000#32 reduces_S512x1024_S512 (.inl rfl) rfl (ix1 p)
      = rowMax (fun j => s (ix2 p j)) := by
  refine (Ideal.multiReduction_maximumf_single s 0xFF800000#32 reduces_S512x1024_S512 (.inl rfl) rfl (ix1 p)).trans ?_
  unfold rowMax
  exact congrArg (fun f => Finset.fold max (Ideal.ofBits .f32 0xFF800000#32) f Finset.univ)
    (funext fun k => congrArg s (lift_row p k))

/-- The sum along the columns, at row `p`, is the sum of that row. -/
theorem rowSumV_apply (e : FVec Ideal S512x1024 .f32) (p : Fin 512) :
    multiReduction .add [1] S512 e 0x00000000#32 reduces_S512x1024_S512 (.inl rfl) rfl (ix1 p)
      = ∑ j : Fin 1024, e (ix2 p j) := by
  refine (Ideal.multiReduction_add_single e 0x00000000#32 reduces_S512x1024_S512 (.inl rfl) rfl (ix1 p)).trans ?_
  exact Finset.sum_congr rfl fun k _ => congrArg e (lift_row p k)

/-- The shifted exponentials at `(p, j)` are those of row `p`. -/
theorem expV_apply (s : FVec Ideal S512x1024 .f32) (p : Fin 512) (j : Fin 1024) :
    expV s (ix2 p j) = rowExp (fun j' => s (ix2 p j')) j := by
  unfold expV rowExp
  show Ideal.exp (s (ix2 p j) - spread _ (ix2 p j)) = _
  rw [spread_apply, rowMaxV_apply]

/-- The softmax at `(p, j)` is that of row `p`. -/
theorem softV_apply (s : FVec Ideal S512x1024 .f32) (p : Fin 512) (j : Fin 1024) :
    softV s (ix2 p j) = rowSoft (fun j' => s (ix2 p j')) j := by
  unfold softV rowSoft
  show Ideal.div (expV s (ix2 p j)) (spread _ (ix2 p j)) = _
  rw [spread_apply, rowSumV_apply, expV_apply]
  exact congrArg (Ideal.div _) (Finset.sum_congr rfl fun k _ => expV_apply s p k)

/-! ## The scores -/

/-- The scores at `(p, j)`: the scaled product of query row `p` with key `j`, weighted and masked. -/
theorem scoresV_apply (x0 : Vec Ideal S1x1x512x64 .f32) (x1 : Vec Ideal S1x1x1024x64 .f32) (x3 : Vec Ideal S1x1x512x1024 .f32)
    (x4 : Vec Ideal S1x1x512x1024 .i32) (p : Fin 512) (j : Fin 1024) :
    scoresV x0 x1 x3 x4 (ix2 p j)
      = scoreRow (fun d => x0 (ix4 (0 : Fin 1) (0 : Fin 1) p d)) (fun j' d => x1 (ix4 (0 : Fin 1) (0 : Fin 1) j' d))
          (fun j' => x3 (ix4 (0 : Fin 1) (0 : Fin 1) p j')) (fun j' => x4 (ix4 (0 : Fin 1) (0 : Fin 1) p j')) j := by
  have e4 : (shapeCast S512x1024 x4 shapeCasts_S1x1x512x1024_S512x1024 : IVec S512x1024 32) (ix2 p j)
      = x4 (ix4 (0 : Fin 1) (0 : Fin 1) p j) := Cert.LibCast4.shapeCast_11ab_ab_apply x4 _ p j
  have e3 : (shapeCast S512x1024 x3 shapeCasts_S1x1x512x1024_S512x1024 : FVec Ideal S512x1024 .f32) (ix2 p j)
      = x3 (ix4 (0 : Fin 1) (0 : Fin 1) p j) := Cert.LibCast4.shapeCast_11ab_ab_apply x3 _ p j
  have em : matmul dot_S512x64_S1024x64_S512x1024_1_1_0_0_n_n none
        (truncf .bf16 (mulf (shapeCast S512x64 x0 shapeCasts_S1x1x512x64_S512x64 : FVec Ideal S512x64 .f32)
          (broadcast S512x64 (Scalar.ofBits .f32 0x3E000000#32))) bitsLt_bf16_f32 : FVec Ideal S512x64 .bf16)
        (truncf .bf16 (shapeCast S1024x64 x1 shapeCasts_S1x1x1024x64_S1024x64 : FVec Ideal S1024x64 .f32) bitsLt_bf16_f32 : FVec Ideal S1024x64 .bf16)
        (constant S512x1024 .f32 0x00000000#32) (ix2 p j)
      = ∑ d : Fin 64, (x0 (ix4 (0 : Fin 1) (0 : Fin 1) p d) * Ideal.ofBits .f32 0x3E000000#32) * x1 (ix4 (0 : Fin 1) (0 : Fin 1) j d) := by
    refine (Ideal.matmul_constant_zero_apply _ none _ _ _).trans ?_
    refine (Cert.LibDotT.sum_eq dot_S512x64_S1024x64_S512x1024_1_1_0_0_n_n rfl rfl rfl rfl rfl rfl _ _ p j).trans ?_
    refine Finset.sum_congr rfl fun d _ => ?_
    show ((shapeCast S512x64 x0 shapeCasts_S1x1x512x64_S512x64 : FVec Ideal S512x64 .f32) (ix2 p d) * Ideal.ofBits .f32 0x3E000000#32)
        * (shapeCast S1024x64 x1 shapeCasts_S1x1x1024x64_S1024x64 : FVec Ideal S1024x64 .f32) (ix2 j d) = _
    rw [Cert.LibCast4.shapeCast_11ab_ab_apply x0 _ p d, Cert.LibCast4.shapeCast_11ab_ab_apply x1 _ j d]
  unfold scoresV scoreRow
  show Scalar.select (IntOp.cmpi .eq ((shapeCast S512x1024 x4 shapeCasts_S1x1x512x1024_S512x1024 : IVec S512x1024 32) (ix2 p j)) 0#32)
      (Ideal.ofBits .f32 0xCE6E6B28#32)
      (matmul dot_S512x64_S1024x64_S512x1024_1_1_0_0_n_n none
        (truncf .bf16 (mulf (shapeCast S512x64 x0 shapeCasts_S1x1x512x64_S512x64 : FVec Ideal S512x64 .f32)
          (broadcast S512x64 (Scalar.ofBits .f32 0x3E000000#32))) bitsLt_bf16_f32 : FVec Ideal S512x64 .bf16)
        (truncf .bf16 (shapeCast S1024x64 x1 shapeCasts_S1x1x1024x64_S1024x64 : FVec Ideal S1024x64 .f32) bitsLt_bf16_f32 : FVec Ideal S1024x64 .bf16)
        (constant S512x1024 .f32 0x00000000#32) (ix2 p j)
        * (shapeCast S512x1024 x3 shapeCasts_S1x1x512x1024_S512x1024 : FVec Ideal S512x1024 .f32) (ix2 p j)) = _
  rw [e4, e3, em]

/-! ## What the body stores -/

/-- The probabilities the body stores, at `(p, j)` of its block: row `p`'s attention probability of key `j`. -/
theorem pay4_apply (x0 : Vec Ideal S1x1x512x64 .f32) (x1 : Vec Ideal S1x1x1024x64 .f32) (x3 : Vec Ideal S1x1x512x1024 .f32)
    (x4 : Vec Ideal S1x1x512x1024 .i32) (p : Fin 512) (j : Fin 1024) :
    k0_pay4 x0 x1 x3 x4 (ix2 p j)
      = attnRow (fun d => x0 (ix4 (0 : Fin 1) (0 : Fin 1) p d)) (fun j' d => x1 (ix4 (0 : Fin 1) (0 : Fin 1) j' d))
          (fun j' => x3 (ix4 (0 : Fin 1) (0 : Fin 1) p j')) (fun j' => x4 (ix4 (0 : Fin 1) (0 : Fin 1) p j')) j := by
  rw [pay4_eq, softV_apply]
  unfold attnRow
  exact congrArg (fun s => rowSoft s j) (funext fun j' => scoresV_apply x0 x1 x3 x4 p j')

/-- The stored block of probabilities, with its two unit axes: entry `(u, w, p, j)` is row `p`'s probability of key `j`. -/
theorem probsBlock_apply (x0 : Vec Ideal S1x1x512x64 .f32) (x1 : Vec Ideal S1x1x1024x64 .f32) (x3 : Vec Ideal S1x1x512x1024 .f32)
    (x4 : Vec Ideal S1x1x512x1024 .i32) (u w : Fin 1) (p : Fin 512) (j : Fin 1024) :
    k0_pay1 (k0_pay4 x0 x1 x3 x4) (ix4 u w p j)
      = attnRow (fun d => x0 (ix4 (0 : Fin 1) (0 : Fin 1) p d)) (fun j' d => x1 (ix4 (0 : Fin 1) (0 : Fin 1) j' d))
          (fun j' => x3 (ix4 (0 : Fin 1) (0 : Fin 1) p j')) (fun j' => x4 (ix4 (0 : Fin 1) (0 : Fin 1) p j')) j := by
  refine Eq.trans ?_ (pay4_apply x0 x1 x3 x4 p j)
  unfold k0_pay1
  exact Cert.LibCast4.shapeCast_ab_11ab_apply (k0_pay4 x0 x1 x3 x4) shapeCasts_S512x1024_S1x1x512x1024 u w p j

/-- The stored block of the output: entry `(u, w, p, d)` is the probabilities' row `p` combined with column `d` of the
    values. -/
theorem pay2_apply (v5 : FVec Ideal S1024x64 .f32) (v28 : FVec Ideal S512x1024 .f32) (u w : Fin 1) (p : Fin 512) (d : Fin 64) :
    k0_pay2 v5 v28 (ix4 u w p d) = ∑ j : Fin 1024, v28 (ix2 p j) * v5 (ix2 j d) := by
  unfold k0_pay2
  refine (Cert.LibCast4.shapeCast_ab_11ab_apply _ shapeCasts_S512x64_S1x1x512x64 u w p d).trans ?_
  refine (Ideal.matmul_constant_zero_apply _ none _ _ _).trans ?_
  exact Idealize.ShloMosaic.PlainDot.sum_eq dot_S512x1024_S1024x64_S512x64_1_0_0_1_n_n rfl rfl rfl rfl rfl rfl _ _ p d

/-- The stored block of the output from the loaded blocks: entry `(u, w, p, d)` is row `p`'s output at column `d`. -/
theorem outBlock_apply (x0 : Vec Ideal S1x1x512x64 .f32) (x1 x2 : Vec Ideal S1x1x1024x64 .f32) (x3 : Vec Ideal S1x1x512x1024 .f32)
    (x4 : Vec Ideal S1x1x512x1024 .i32) (u w : Fin 1) (p : Fin 512) (d : Fin 64) :
    k0_pay2 (k0_pay3 x2) (k0_pay4 x0 x1 x3 x4) (ix4 u w p d)
      = outRow (fun d => x0 (ix4 (0 : Fin 1) (0 : Fin 1) p d)) (fun j' d => x1 (ix4 (0 : Fin 1) (0 : Fin 1) j' d))
          (fun j' => x3 (ix4 (0 : Fin 1) (0 : Fin 1) p j')) (fun j' => x4 (ix4 (0 : Fin 1) (0 : Fin 1) p j'))
          (fun j' d => x2 (ix4 (0 : Fin 1) (0 : Fin 1) j' d)) d := by
  rw [pay2_apply]
  unfold outRow
  refine Finset.sum_congr rfl fun j _ => ?_
  rw [pay4_apply]
  refine congrArg (fun z : EReal => attnRow (fun d => x0 (ix4 (0 : Fin 1) (0 : Fin 1) p d)) (fun j' d => x1 (ix4 (0 : Fin 1) (0 : Fin 1) j' d))
      (fun j' => x3 (ix4 (0 : Fin 1) (0 : Fin 1) p j')) (fun j' => x4 (ix4 (0 : Fin 1) (0 : Fin 1) p j')) j * z) ?_
  unfold k0_pay3
  exact Cert.LibCast4.shapeCast_11ab_ab_apply x2 shapeCasts_S1x1x1024x64_S1024x64 j d

end Cert.AttnPay

end
-- ==== Proof.AttnBlocks.lean ====
/-
  From the blocks the grid points write back to the two result arrays.

  The grid has 4 × 2 × 8 points `(b, qi, h)`. Point `(b, qi, h)` loads rows `512·qi … 512·qi + 511` of the queries
  and of the weights of batch `b` and head `h`, the same rows of the mask of batch `b` (the mask has one head), and
  all the keys and values of `(b, h)`; it writes back rows `512·qi … 512·qi + 511` of the output and of the
  probabilities of `(b, h)`. Row `p` of a written block depends only on row `p` of the loaded query, weight and mask
  blocks and on the whole key and value blocks, so the written block is the block of ONE function of the argument
  arrays — the specification's `probs` and `output` — and the 64 blocks tile each result array.
-/
import proofs.«146716_j66151086293333_2_alg».proof.Proof.Gen.KernelIdeal.Value
import proofs.«146716_j66151086293333_2_alg».proof.Proof.AttnSpec
import proofs.«146716_j66151086293333_2_alg».proof.Proof.AttnPay
import Idealize.ShloMosaic.Lib.Pipeline.Value
import Idealize.ShloMosaic.Lib.ValueIdx

noncomputable section

open scoped BigOperators

namespace Cert.AttnBlocks

open Cert.KernelIdeal Cert.KernelIdeal.Gen Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl

/-! ## The index maps, decided over the 64 grid points -/

/-- Every window's block index at a point, against the probabilities' window's: the queries, the weights and the
    output move with it on the batch, head and row-block axes; the keys and values on the batch and head axes only;
    the mask on the batch and row-block axes only; every other block index is zero. -/
theorem idx_facts : ∀ t : Fin cfg0.N,
    (win0_0.index t (0 : Fin 4) = win0_6.index t (0 : Fin 4) ∧ win0_0.index t (1 : Fin 4) = win0_6.index t (1 : Fin 4)
      ∧ win0_0.index t (2 : Fin 4) = win0_6.index t (2 : Fin 4) ∧ win0_0.index t (3 : Fin 4) = 0)
    ∧ (win0_1.index t (0 : Fin 4) = win0_6.index t (0 : Fin 4) ∧ win0_1.index t (1 : Fin 4) = win0_6.index t (1 : Fin 4)
      ∧ win0_1.index t (2 : Fin 4) = 0 ∧ win0_1.index t (3 : Fin 4) = 0)
    ∧ (win0_2.index t (0 : Fin 4) = win0_6.index t (0 : Fin 4) ∧ win0_2.index t (1 : Fin 4) = win0_6.index t (1 : Fin 4)
      ∧ win0_2.index t (2 : Fin 4) = 0 ∧ win0_2.index t (3 : Fin 4) = 0)
    ∧ (win0_3.index t (0 : Fin 4) = win0_6.index t (0 : Fin 4) ∧ win0_3.index t (1 : Fin 4) = win0_6.index t (1 : Fin 4)
      ∧ win0_3.index t (2 : Fin 4) = win0_6.index t (2 : Fin 4) ∧ win0_3.index t (3 : Fin 4) = 0)
    ∧ (win0_4.index t (0 : Fin 4) = win0_6.index t (0 : Fin 4) ∧ win0_4.index t (1 : Fin 4) = 0
      ∧ win0_4.index t (2 : Fin 4) = win0_6.index t (2 : Fin 4) ∧ win0_4.index t (3 : Fin 4) = 0)
    ∧ (win0_5.index t (0 : Fin 4) = win0_6.index t (0 : Fin 4) ∧ win0_5.index t (1 : Fin 4) = win0_6.index t (1 : Fin 4)
      ∧ win0_5.index t (2 : Fin 4) = win0_6.index t (2 : Fin 4) ∧ win0_5.index t (3 : Fin 4) = 0)
    ∧ (win0_6.index t (0 : Fin 4) < 4 ∧ win0_6.index t (1 : Fin 4) < 8 ∧ win0_6.index t (2 : Fin 4) < 2
      ∧ win0_6.index t (3 : Fin 4) = 0) :=
  (by decide +kernel : ∀ t : Fin grid0.N, _)

/-- Every (batch, head, row-block) triple is some point's. -/
theorem idx_onto : ∀ (q0 : Fin 4) (q1 : Fin 8) (q2 : Fin 2), ∃ t : Fin cfg0.N,
    win0_6.index t (0 : Fin 4) = q0.val ∧ win0_6.index t (1 : Fin 4) = q1.val ∧ win0_6.index t (2 : Fin 4) = q2.val :=
  (by decide +kernel : ∀ (q0 : Fin 4) (q1 : Fin 8) (q2 : Fin 2), ∃ t : Fin grid0.N,
    win0_6.index t (0 : Fin 4) = q0.val ∧ win0_6.index t (1 : Fin 4) = q1.val ∧ win0_6.index t (2 : Fin 4) = q2.val)

/-! ## The loaded blocks, read at coordinates -/

/-- An entry of the query block at a point is the entry of the query array at the block's offsets plus the
    coordinates inside the block. -/
theorem iblk0_apply (c : Dev nD) (t : Fin cfg0.N) (u w : Fin 1) (p : Fin 512) (d : Fin 64)
    (b : Fin 4) (h : Fin 8) (r : Fin 1024) (d' : Fin 64)
    (h0 : b.val = win0_0.index t (0 : Fin 4) * 1 + u.val) (h1 : h.val = win0_0.index t (1 : Fin 4) * 1 + w.val)
    (h2 : r.val = win0_0.index t (2 : Fin 4) * 512 + p.val) (h3 : d'.val = win0_0.index t (3 : Fin 4) * 64 + d.val) :
    (iblk m c 0 t : Vec Ideal S1x1x512x64 .f32) (ix4 u w p d) = (V m c main_arg0 : S4x8x1024x64.Idx → EReal) (ix4 b h r d') := by
  unfold iblk
  rw [View.read_apply]
  show V m c main_arg0 _ = V m c main_arg0 _
  congr 1
  funext a
  apply Fin.ext
  match a with
  | ⟨0, _⟩ => show win0_0.index t (0 : Fin 4) * 1 + 1 * u.val = b.val; omega
  | ⟨1, _⟩ => show win0_0.index t (1 : Fin 4) * 1 + 1 * w.val = h.val; omega
  | ⟨2, _⟩ => show win0_0.index t (2 : Fin 4) * 512 + 1 * p.val = r.val; omega
  | ⟨3, _⟩ => show win0_0.index t (3 : Fin 4) * 64 + 1 * d.val = d'.val; omega

/-- The same for the key block. -/
theorem iblk1_apply (c : Dev nD) (t : Fin cfg0.N) (u w : Fin 1) (p : Fin 1024) (d : Fin 64)
    (b : Fin 4) (h : Fin 8) (r : Fin 1024) (d' : Fin 64)
    (h0 : b.val = win0_1.index t (0 : Fin 4) * 1 + u.val) (h1 : h.val = win0_1.index t (1 : Fin 4) * 1 + w.val)
    (h2 : r.val = win0_1.index t (2 : Fin 4) * 1024 + p.val) (h3 : d'.val = win0_1.index t (3 : Fin 4) * 64 + d.val) :
    (iblk m c 1 t : Vec Ideal S1x1x1024x64 .f32) (ix4 u w p d) = (V m c main_arg1 : S4x8x1024x64.Idx → EReal) (ix4 b h r d') := by
  unfold iblk
  rw [View.read_apply]
  show V m c main_arg1 _ = V m c main_arg1 _
  congr 1
  funext a
  apply Fin.ext
  match a with
  | ⟨0, _⟩ => show win0_1.index t (0 : Fin 4) * 1 + 1 * u.val = b.val; omega
  | ⟨1, _⟩ => show win0_1.index t (1 : Fin 4) * 1 + 1 * w.val = h.val; omega
  | ⟨2, _⟩ => show win0_1.index t (2 : Fin 4) * 1024 + 1 * p.val = r.val; omega
  | ⟨3, _⟩ => show win0_1.index t (3 : Fin 4) * 64 + 1 * d.val = d'.val; omega

/-- The same for the value block. -/
theorem iblk2_apply (c : Dev nD) (t : Fin cfg0.N) (u w : Fin 1) (p : Fin 1024) (d : Fin 64)
    (b : Fin 4) (h : Fin 8) (r : Fin 1024) (d' : Fin 64)
    (h0 : b.val = win0_2.index t (0 : Fin 4) * 1 + u.val) (h1 : h.val = win0_2.index t (1 : Fin 4) * 1 + w.val)
    (h2 : r.val = win0_2.index t (2 : Fin 4) * 1024 + p.val) (h3 : d'.val = win0_2.index t (3 : Fin 4) * 64 + d.val) :
    (iblk m c 2 t : Vec Ideal S1x1x1024x64 .f32) (ix4 u w p d) = (V m c main_arg2 : S4x8x1024x64.Idx → EReal) (ix4 b h r d') := by
  unfold iblk
  rw [View.read_apply]
  show V m c main_arg2 _ = V m c main_arg2 _
  congr 1
  funext a
  apply Fin.ext
  match a with
  | ⟨0, _⟩ => show win0_2.index t (0 : Fin 4) * 1 + 1 * u.val = b.val; omega
  | ⟨1, _⟩ => show win0_2.index t (1 : Fin 4) * 1 + 1 * w.val = h.val; omega
  | ⟨2, _⟩ => show win0_2.index t (2 : Fin 4) * 1024 + 1 * p.val = r.val; omega
  | ⟨3, _⟩ => show win0_2.index t (3 : Fin 4) * 64 + 1 * d.val = d'.val; omega

/-- The same for the weight block. -/
theorem iblk3_apply (c : Dev nD) (t : Fin cfg0.N) (u w : Fin 1) (p : Fin 512) (j : Fin 1024)
    (b : Fin 4) (h : Fin 8) (r : Fin 1024) (j' : Fin 1024)
    (h0 : b.val = win0_3.index t (0 : Fin 4) * 1 + u.val) (h1 : h.val = win0_3.index t (1 : Fin 4) * 1 + w.val)
    (h2 : r.val = win0_3.index t (2 : Fin 4) * 512 + p.val) (h3 : j'.val = win0_3.index t (3 : Fin 4) * 1024 + j.val) :
    (iblk m c 3 t : Vec Ideal S1x1x512x1024 .f32) (ix4 u w p j) = (V m c main_arg3 : S4x8x1024x1024.Idx → EReal) (ix4 b h r j') := by
  unfold iblk
  rw [View.read_apply]
  show V m c main_arg3 _ = V m c main_arg3 _
  congr 1
  funext a
  apply Fin.ext
  match a with
  | ⟨0, _⟩ => show win0_3.index t (0 : Fin 4) * 1 + 1 * u.val = b.val; omega
  | ⟨1, _⟩ => show win0_3.index t (1 : Fin 4) * 1 + 1 * w.val = h.val; omega
  | ⟨2, _⟩ => show win0_3.index t (2 : Fin 4) * 512 + 1 * p.val = r.val; omega
  | ⟨3, _⟩ => show win0_3.index t (3 : Fin 4) * 1024 + 1 * j.val = j'.val; omega

/-- The same for the mask block, whose array has one head. -/
theorem iblk4_apply (c : Dev nD) (t : Fin cfg0.N) (u w : Fin 1) (p : Fin 512) (j : Fin 1024)
    (b : Fin 4) (h : Fin 1) (r : Fin 1024) (j' : Fin 1024)
    (h0 : b.val = win0_4.index t (0 : Fin 4) * 1 + u.val) (h1 : h.val = win0_4.index t (1 : Fin 4) * 1 + w.val)
    (h2 : r.val = win0_4.index t (2 : Fin 4) * 512 + p.val) (h3 : j'.val = win0_4.index t (3 : Fin 4) * 1024 + j.val) :
    (iblk m c 4 t : Vec Ideal S1x1x512x1024 .i32) (ix4 u w p j) = (V m c main_arg4 : S4x1x1024x1024.Idx → BitVec 32) (ix4 b h r j') := by
  unfold iblk
  rw [View.read_apply]
  show V m c main_arg4 _ = V m c main_arg4 _
  congr 1
  funext a
  apply Fin.ext
  match a with
  | ⟨0, _⟩ => show win0_4.index t (0 : Fin 4) * 1 + 1 * u.val = b.val; omega
  | ⟨1, _⟩ => show win0_4.index t (1 : Fin 4) * 1 + 1 * w.val = h.val; omega
  | ⟨2, _⟩ => show win0_4.index t (2 : Fin 4) * 512 + 1 * p.val = r.val; omega
  | ⟨3, _⟩ => show win0_4.index t (3 : Fin 4) * 1024 + 1 * j.val = j'.val; omega

/-! ## What a point writes back is its block of the specification -/

/-- Point `t` writes back, to the probabilities' array, block `t` of `probs` of the argument arrays. -/
theorem flushed6_eq (c : Dev nD) (t : Fin cfg0.N) :
    (dats m 0 c).flushed 6 t = ((cfg0.win 6).blk t).view.read (Elt Ideal)
      (probs (V m c main_arg0) (V m c main_arg1) (V m c main_arg3) (V m c main_arg4)) := by
  rw [Cert.KernelIdeal.Value.flushed6]
  unfold out0_6
  rw [View.canon_unit_zero hz4]
  simp only [View.ld_unit_zero (S := S1x1x512x64) hz4, View.ld_unit_zero (S := S1x1x1024x64) hz4,
    View.ld_unit_zero (S := S1x1x512x1024) hz4]
  obtain ⟨⟨a0, a1, a2, a3⟩, ⟨b0, b1, b2, b3⟩, -, ⟨d0, d1, d2, d3⟩, ⟨e0, e1, e2, e3⟩, -, ⟨g0, g1, g2, g3⟩⟩ := idx_facts t
  funext y
  obtain ⟨u, w, p, j, rfl⟩ : ∃ (u w : Fin 1) (p : Fin 512) (j : Fin 1024), y = ix4 u w p j :=
    ⟨y 0, y 1, y 2, y 3, eq_ix4 y⟩
  have hu : u.val = 0 := by omega
  have hw : w.val = 0 := by omega
  have hI : ((cfg0.win 6).blk t).view.emb (ix4 u w p j)
      = (ix4 (⟨win0_6.index t (0 : Fin 4), g0⟩ : Fin 4) (⟨win0_6.index t (1 : Fin 4), g1⟩ : Fin 8)
          (⟨win0_6.index t (2 : Fin 4) * 512 + p.val, by omega⟩ : Fin 1024) j : S4x8x1024x1024.Idx) := by
    funext a
    apply Fin.ext
    match a with
    | ⟨0, _⟩ => show win0_6.index t (0 : Fin 4) * 1 + 1 * u.val = win0_6.index t (0 : Fin 4); omega
    | ⟨1, _⟩ => show win0_6.index t (1 : Fin 4) * 1 + 1 * w.val = win0_6.index t (1 : Fin 4); omega
    | ⟨2, _⟩ => show win0_6.index t (2 : Fin 4) * 512 + 1 * p.val = win0_6.index t (2 : Fin 4) * 512 + p.val; omega
    | ⟨3, _⟩ => show win0_6.index t (3 : Fin 4) * 1024 + 1 * j.val = j.val; omega
  show k0_pay1 (k0_pay4 (iblk m c 0 t) (iblk m c 1 t) (iblk m c 3 t) (iblk m c 4 t)) (ix4 u w p j)
      = probs (V m c main_arg0) (V m c main_arg1) (V m c main_arg3) (V m c main_arg4)
          (((cfg0.win 6).blk t).view.emb (ix4 u w p j))
  rw [hI]
  refine (Cert.AttnPay.probsBlock_apply (iblk m c 0 t) (iblk m c 1 t) (iblk m c 3 t) (iblk m c 4 t) u w p j).trans ?_
  show attnRow _ _ _ _ j = attnRow _ _ _ _ j
  have hq : (fun d => (iblk m c 0 t : Vec Ideal S1x1x512x64 .f32) (ix4 (0 : Fin 1) (0 : Fin 1) p d))
      = fun d => (V m c main_arg0 : S4x8x1024x64.Idx → EReal) (ix4 (⟨win0_6.index t (0 : Fin 4), g0⟩ : Fin 4)
          (⟨win0_6.index t (1 : Fin 4), g1⟩ : Fin 8) (⟨win0_6.index t (2 : Fin 4) * 512 + p.val, by omega⟩ : Fin 1024) d) :=
    funext fun d => iblk0_apply m c t 0 0 p d _ _ _ d (by show win0_6.index t (0 : Fin 4) = _ * 1 + 0; omega)
      (by show win0_6.index t (1 : Fin 4) = _ * 1 + 0; omega)
      (by show win0_6.index t (2 : Fin 4) * 512 + p.val = _ * 512 + p.val; omega) (by omega)
  have hk : (fun j' d => (iblk m c 1 t : Vec Ideal S1x1x1024x64 .f32) (ix4 (0 : Fin 1) (0 : Fin 1) j' d))
      = fun j' d => (V m c main_arg1 : S4x8x1024x64.Idx → EReal) (ix4 (⟨win0_6.index t (0 : Fin 4), g0⟩ : Fin 4)
          (⟨win0_6.index t (1 : Fin 4), g1⟩ : Fin 8) j' d) :=
    funext fun j' => funext fun d => iblk1_apply m c t 0 0 j' d _ _ j' d (by show win0_6.index t (0 : Fin 4) = _ * 1 + 0; omega)
      (by show win0_6.index t (1 : Fin 4) = _ * 1 + 0; omega) (by omega) (by omega)
  have hs : (fun j' => (iblk m c 3 t : Vec Ideal S1x1x512x1024 .f32) (ix4 (0 : Fin 1) (0 : Fin 1) p j'))
      = fun j' => (V m c main_arg3 : S4x8x1024x1024.Idx → EReal) (ix4 (⟨win0_6.index t (0 : Fin 4), g0⟩ : Fin 4)
          (⟨win0_6.index t (1 : Fin 4), g1⟩ : Fin 8) (⟨win0_6.index t (2 : Fin 4) * 512 + p.val, by omega⟩ : Fin 1024) j') :=
    funext fun j' => iblk3_apply m c t 0 0 p j' _ _ _ j' (by show win0_6.index t (0 : Fin 4) = _ * 1 + 0; omega)
      (by show win0_6.index t (1 : Fin 4) = _ * 1 + 0; omega)
      (by show win0_6.index t (2 : Fin 4) * 512 + p.val = _ * 512 + p.val; omega) (by omega)
  have hm : (fun j' => (iblk m c 4 t : Vec Ideal S1x1x512x1024 .i32) (ix4 (0 : Fin 1) (0 : Fin 1) p j'))
      = fun j' => (V m c main_arg4 : S4x1x1024x1024.Idx → BitVec 32) (ix4 (⟨win0_6.index t (0 : Fin 4), g0⟩ : Fin 4)
          (0 : Fin 1) (⟨win0_6.index t (2 : Fin 4) * 512 + p.val, by omega⟩ : Fin 1024) j') :=
    funext fun j' => iblk4_apply m c t 0 0 p j' _ 0 _ j' (by show win0_6.index t (0 : Fin 4) = _ * 1 + 0; omega)
      (by show 0 = _ * 1 + 0; omega)
      (by show win0_6.index t (2 : Fin 4) * 512 + p.val = _ * 512 + p.val; omega) (by omega)
  rw [hq, hk, hs, hm]

/-- Point `t` writes back, to the output array, block `t` of `output` of the argument arrays. -/
theorem flushed5_eq (c : Dev nD) (t : Fin cfg0.N) :
    (dats m 0 c).flushed 5 t = ((cfg0.win 5).blk t).view.read (Elt Ideal)
      (output (V m c main_arg0) (V m c main_arg1) (V m c main_arg2) (V m c main_arg3) (V m c main_arg4)) := by
  rw [Cert.KernelIdeal.Value.flushed5]
  unfold out0_5
  rw [View.canon_unit_zero hz4]
  simp only [View.ld_unit_zero (S := S1x1x512x64) hz4, View.ld_unit_zero (S := S1x1x1024x64) hz4,
    View.ld_unit_zero (S := S1x1x512x1024) hz4]
  obtain ⟨⟨a0, a1, a2, a3⟩, ⟨b0, b1, b2, b3⟩, ⟨c0, c1, c2, c3⟩, ⟨d0, d1, d2, d3⟩, ⟨e0, e1, e2, e3⟩, ⟨f0, f1, f2, f3⟩,
    ⟨g0, g1, g2, g3⟩⟩ := idx_facts t
  funext y
  obtain ⟨u, w, p, d, rfl⟩ : ∃ (u w : Fin 1) (p : Fin 512) (d : Fin 64), y = ix4 u w p d :=
    ⟨y 0, y 1, y 2, y 3, eq_ix4 y⟩
  have hu : u.val = 0 := by omega
  have hw : w.val = 0 := by omega
  have hI : ((cfg0.win 5).blk t).view.emb (ix4 u w p d)
      = (ix4 (⟨win0_6.index t (0 : Fin 4), g0⟩ : Fin 4) (⟨win0_6.index t (1 : Fin 4), g1⟩ : Fin 8)
          (⟨win0_6.index t (2 : Fin 4) * 512 + p.val, by omega⟩ : Fin 1024) d : S4x8x1024x64.Idx) := by
    funext a
    apply Fin.ext
    match a with
    | ⟨0, _⟩ => show win0_5.index t (0 : Fin 4) * 1 + 1 * u.val = win0_6.index t (0 : Fin 4); omega
    | ⟨1, _⟩ => show win0_5.index t (1 : Fin 4) * 1 + 1 * w.val = win0_6.index t (1 : Fin 4); omega
    | ⟨2, _⟩ => show win0_5.index t (2 : Fin 4) * 512 + 1 * p.val = win0_6.index t (2 : Fin 4) * 512 + p.val; omega
    | ⟨3, _⟩ => show win0_5.index t (3 : Fin 4) * 64 + 1 * d.val = d.val; omega
  show k0_pay2 (k0_pay3 (iblk m c 2 t)) (k0_pay4 (iblk m c 0 t) (iblk m c 1 t) (iblk m c 3 t) (iblk m c 4 t)) (ix4 u w p d)
      = output (V m c main_arg0) (V m c main_arg1) (V m c main_arg2) (V m c main_arg3) (V m c main_arg4)
          (((cfg0.win 5).blk t).view.emb (ix4 u w p d))
  rw [hI]
  refine (Cert.AttnPay.outBlock_apply (iblk m c 0 t) (iblk m c 1 t) (iblk m c 2 t) (iblk m c 3 t) (iblk m c 4 t) u w p d).trans ?_
  show outRow _ _ _ _ _ d = outRow _ _ _ _ _ d
  have hq : (fun d => (iblk m c 0 t : Vec Ideal S1x1x512x64 .f32) (ix4 (0 : Fin 1) (0 : Fin 1) p d))
      = fun d => (V m c main_arg0 : S4x8x1024x64.Idx → EReal) (ix4 (⟨win0_6.index t (0 : Fin 4), g0⟩ : Fin 4)
          (⟨win0_6.index t (1 : Fin 4), g1⟩ : Fin 8) (⟨win0_6.index t (2 : Fin 4) * 512 + p.val, by omega⟩ : Fin 1024) d) :=
    funext fun d => iblk0_apply m c t 0 0 p d _ _ _ d (by show win0_6.index t (0 : Fin 4) = _ * 1 + 0; omega)
      (by show win0_6.index t (1 : Fin 4) = _ * 1 + 0; omega)
      (by show win0_6.index t (2 : Fin 4) * 512 + p.val = _ * 512 + p.val; omega) (by omega)
  have hk : (fun j' d => (iblk m c 1 t : Vec Ideal S1x1x1024x64 .f32) (ix4 (0 : Fin 1) (0 : Fin 1) j' d))
      = fun j' d => (V m c main_arg1 : S4x8x1024x64.Idx → EReal) (ix4 (⟨win0_6.index t (0 : Fin 4), g0⟩ : Fin 4)
          (⟨win0_6.index t (1 : Fin 4), g1⟩ : Fin 8) j' d) :=
    funext fun j' => funext fun d => iblk1_apply m c t 0 0 j' d _ _ j' d (by show win0_6.index t (0 : Fin 4) = _ * 1 + 0; omega)
      (by show win0_6.index t (1 : Fin 4) = _ * 1 + 0; omega) (by omega) (by omega)
  have hv : (fun j' d => (iblk m c 2 t : Vec Ideal S1x1x1024x64 .f32) (ix4 (0 : Fin 1) (0 : Fin 1) j' d))
      = fun j' d => (V m c main_arg2 : S4x8x1024x64.Idx → EReal) (ix4 (⟨win0_6.index t (0 : Fin 4), g0⟩ : Fin 4)
          (⟨win0_6.index t (1 : Fin 4), g1⟩ : Fin 8) j' d) :=
    funext fun j' => funext fun d => iblk2_apply m c t 0 0 j' d _ _ j' d (by show win0_6.index t (0 : Fin 4) = _ * 1 + 0; omega)
      (by show win0_6.index t (1 : Fin 4) = _ * 1 + 0; omega) (by omega) (by omega)
  have hs : (fun j' => (iblk m c 3 t : Vec Ideal S1x1x512x1024 .f32) (ix4 (0 : Fin 1) (0 : Fin 1) p j'))
      = fun j' => (V m c main_arg3 : S4x8x1024x1024.Idx → EReal) (ix4 (⟨win0_6.index t (0 : Fin 4), g0⟩ : Fin 4)
          (⟨win0_6.index t (1 : Fin 4), g1⟩ : Fin 8) (⟨win0_6.index t (2 : Fin 4) * 512 + p.val, by omega⟩ : Fin 1024) j') :=
    funext fun j' => iblk3_apply m c t 0 0 p j' _ _ _ j' (by show win0_6.index t (0 : Fin 4) = _ * 1 + 0; omega)
      (by show win0_6.index t (1 : Fin 4) = _ * 1 + 0; omega)
      (by show win0_6.index t (2 : Fin 4) * 512 + p.val = _ * 512 + p.val; omega) (by omega)
  have hm : (fun j' => (iblk m c 4 t : Vec Ideal S1x1x512x1024 .i32) (ix4 (0 : Fin 1) (0 : Fin 1) p j'))
      = fun j' => (V m c main_arg4 : S4x1x1024x1024.Idx → BitVec 32) (ix4 (⟨win0_6.index t (0 : Fin 4), g0⟩ : Fin 4)
          (0 : Fin 1) (⟨win0_6.index t (2 : Fin 4) * 512 + p.val, by omega⟩ : Fin 1024) j') :=
    funext fun j' => iblk4_apply m c t 0 0 p j' _ 0 _ j' (by show win0_6.index t (0 : Fin 4) = _ * 1 + 0; omega)
      (by show 0 = _ * 1 + 0; omega)
      (by show win0_6.index t (2 : Fin 4) * 512 + p.val = _ * 512 + p.val; omega) (by omega)
  rw [hq, hk, hv, hs, hm]

/-! ## The blocks tile the arrays -/

/-- An index of the probabilities' array is in point `t`'s block iff each coordinate is in the block's range. -/
theorem mem_blk6 (t : Fin cfg0.N) (i : S4x8x1024x1024.Idx) :
    i ∈ ((cfg0.win 6).blk t).view.set ↔ ∀ a : Fin 4, win0_6.index t a * S1x1x512x1024.size a ≤ (i a).val
      ∧ (i a).val < win0_6.index t a * S1x1x512x1024.size a + S1x1x512x1024.size a := by
  show i ∈ ((View.whole main_v0_1).slice (win0_6.rect t)).set ↔ _
  rw [View.set_slice_whole, Rect.mem_set_unit]
  exact Iff.rfl

/-- The same for the output array. -/
theorem mem_blk5 (t : Fin cfg0.N) (i : S4x8x1024x64.Idx) :
    i ∈ ((cfg0.win 5).blk t).view.set ↔ ∀ a : Fin 4, win0_5.index t a * S1x1x512x64.size a ≤ (i a).val
      ∧ (i a).val < win0_5.index t a * S1x1x512x64.size a + S1x1x512x64.size a := by
  show i ∈ ((View.whole main_v0_0).slice (win0_5.rect t)).set ↔ _
  rw [View.set_slice_whole, Rect.mem_set_unit]
  exact Iff.rfl

/-- Every entry `(b, h, r, j)` of the probabilities' array is in the block of the point of `(b, r / 512, h)`. -/
theorem cover6 (i : S4x8x1024x1024.Idx) :
    ∃ t : Fin cfg0.N, (cfg0.win 6).flush t = true ∧ i ∈ ((cfg0.win 6).blk t).view.set := by
  have hi0 : (i 0).val < 4 := (i 0).isLt
  have hi1 : (i 1).val < 8 := (i 1).isLt
  have hi2 : (i 2).val < 1024 := (i 2).isLt
  have hi3 : (i 3).val < 1024 := (i 3).isLt
  obtain ⟨t, q0, q1, q2⟩ := idx_onto ⟨(i 0).val, hi0⟩ ⟨(i 1).val, hi1⟩ ⟨(i 2).val / 512, by omega⟩
  obtain ⟨-, -, -, -, -, -, ⟨g0, g1, g2, g3⟩⟩ := idx_facts t
  have q0' : win0_6.index t (0 : Fin 4) = (i 0).val := q0
  have q1' : win0_6.index t (1 : Fin 4) = (i 1).val := q1
  have q2' : win0_6.index t (2 : Fin 4) = (i 2).val / 512 := q2
  refine ⟨t, flush0_6 t, ?_⟩
  rw [mem_blk6]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 1 ≤ (i 1).val ∧ (i 1).val < win0_6.index t (1 : Fin 4) * 1 + 1; omega
  | ⟨2, _⟩ => show win0_6.index t (2 : Fin 4) * 512 ≤ (i 2).val ∧ (i 2).val < win0_6.index t (2 : Fin 4) * 512 + 512; omega
  | ⟨3, _⟩ => show win0_6.index t (3 : Fin 4) * 1024 ≤ (i 3).val ∧ (i 3).val < win0_6.index t (3 : Fin 4) * 1024 + 1024; omega

/-- Every entry `(b, h, r, d)` of the output array is in the block of the point of `(b, r / 512, h)`. -/
theorem cover5 (i : S4x8x1024x64.Idx) :
    ∃ t : Fin cfg0.N, (cfg0.win 5).flush t = true ∧ i ∈ ((cfg0.win 5).blk t).view.set := by
  have hi0 : (i 0).val < 4 := (i 0).isLt
  have hi1 : (i 1).val < 8 := (i 1).isLt
  have hi2 : (i 2).val < 1024 := (i 2).isLt
  have hi3 : (i 3).val < 64 := (i 3).isLt
  obtain ⟨t, q0, q1, q2⟩ := idx_onto ⟨(i 0).val, hi0⟩ ⟨(i 1).val, hi1⟩ ⟨(i 2).val / 512, by omega⟩
  obtain ⟨-, -, -, -, -, ⟨f0, f1, f2, f3⟩, -⟩ := idx_facts t
  have q0' : win0_6.index t (0 : Fin 4) = (i 0).val := q0
  have q1' : win0_6.index t (1 : Fin 4) = (i 1).val := q1
  have q2' : win0_6.index t (2 : Fin 4) = (i 2).val / 512 := q2
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 512 ≤ (i 2).val ∧ (i 2).val < win0_5.index t (2 : Fin 4) * 512 + 512; omega
  | ⟨3, _⟩ => show win0_5.index t (3 : Fin 4) * 64 ≤ (i 3).val ∧ (i 3).val < win0_5.index t (3 : Fin 4) * 64 + 64; omega

/-! ## The arrays after the run -/

/-- After the run the probabilities' array is `probs` of the argument arrays. -/
theorem final6 (c : Dev nD) : (dats m 0 c).arrAt 6 cfg0.N
    = probs (V m c main_arg0) (V m c main_arg1) (V m c main_arg3) (V m c main_arg4) :=
  (dats m 0 c).arrAt_eq_of_cover 6 (probs (V m c main_arg0) (V m c main_arg1) (V m c main_arg3) (V m c main_arg4))
    (fun t _ => flushed6_eq m c t) cover6

/-- After the run the output array is `output` of the argument arrays. -/
theorem final5 (c : Dev nD) : (dats m 0 c).arrAt 5 cfg0.N
    = output (V m c main_arg0) (V m c main_arg1) (V m c main_arg2) (V m c main_arg3) (V m c main_arg4) :=
  (dats m 0 c).arrAt_eq_of_cover 5
    (output (V m c main_arg0) (V m c main_arg1) (V m c main_arg2) (V m c main_arg3) (V m c main_arg4))
    (fun t _ => flushed5_eq m c t) cover5

/-- The kernel's run: every weakly fair execution ends with the two result arrays at the specification's `output` and
    `probs` of the argument arrays as launched, the arguments unchanged. -/
theorem run : θ_run defs (onTc (τ := τ) (main (F := Ideal))) ⟨m, fun _ => 0, ρ⟩ fun r => ∀ c : Dev nD,
      r.2.mem ((c : Thread nD τ).loc main_v0_0)
        = output (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_v0_1)
        = probs (m ((c : Thread nD τ).loc main_arg0)) (m ((c : Thread nD τ).loc main_arg1))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2⟩)
    (Cert.KernelIdeal.Value.run_blocks m ρ)

end Cert.AttnBlocks

end
-- ==== Proof.AttnRef.lean ====
/-
  The reference program computes the specification's attention, index by index.

  Read at an index (b, h, r, ·), every stage of the reference program is a function of ONE row of scores, the
  row s of query r of head h of batch b:
  * the query is divided by the word for 8; on every extended real that is the product with the word for 1/8
    (division by a nonzero real is the product with its reciprocal, at the infinities too), so the scaled inner
    product, its weight and the masked replacement are the specification's score s j;
  * the row maximum is reduced from the word for −∞ over the key axis, a fold of max over the 1024 keys, and the
    further maximum with the same word changes nothing, the fold being already above its starting value;
  * the exponentials exp (s j − max s), their sum (from the zero word, which denotes 0), and the quotient are
    the specification's softmax of the row;
  * the output is the sum over the keys of the probabilities times the values.
-/
import proofs.«146716_j66151086293333_2_alg».proof.Proof.Gen.ReferenceIdeal.Read
import proofs.«146716_j66151086293333_2_alg».proof.Proof.AttnSpec
import Idealize.ShloMosaic.PureOps.Ideal.Laws
import Idealize.ShloMosaic.PureOps.Reduce
import Idealize.ShloMosaic.Lib.ValueIdx

noncomputable section

open scoped BigOperators

namespace Cert.AttnRef

open Cert.ReferenceIdeal Cert.ReferenceIdeal.Gen Cert.ReferenceIdeal.Read Idealize.ShloMosaic Idealize.ShloMosaic.ValueIdx

/-! ## The two words of the scale -/

/-- The word the reference divides the queries by denotes the real 8. -/
theorem ofBits_eight : Ideal.ofBits .f32 0x41000000#32 = ((8 : ℝ) : EReal) := by
  simp [Ideal.ofBits, Ideal.ieee, -EReal.coe_mul]; norm_num

/-- The word the specification multiplies the queries by denotes the real 1/8. -/
theorem ofBits_eighth : Ideal.ofBits .f32 0x3E000000#32 = ((1 / 8 : ℝ) : EReal) := by
  simp [Ideal.ofBits, Ideal.ieee, -EReal.coe_mul]; norm_num

variable (x0 x1 x2 : Cert.Attn.SQ.Idx → EReal) (x3 : Cert.Attn.SS.Idx → EReal) (x4 : Cert.Attn.SM.Idx → BitVec 32)

/-! ## The scores -/

/-- Dividing a query entry by the word for 8 is multiplying it by the word for 1/8, on every extended real. -/
theorem scaled_query (i : S4x8x1024x64.Idx) :
    val_main_v1 (F := Ideal) x0 i = x0 i * Ideal.ofBits .f32 0x3E000000#32 := by
  rw [val_main_v1_apply, val_main_v0_apply, val_main_cst_apply, Ideal.hostDivf_def, Ideal.ofBits_def, ofBits_eight,
    Ideal.div_coe (y := 8) (by norm_num), ofBits_eighth]

/-- The masked, weighted score at (b, h, r, j) is the specification's score of row (b, h, r) at key j: the
    mask word is read at (b, 0, r, j), whatever the head. -/
theorem score_eq (b : Fin 4) (h : Fin 8) (r j : Fin 1024) :
    val_main_v6 (F := Ideal) x0 x1 x3 x4 (ix4 b h r j)
      = Cert.Attn.scoreRow (fun d => x0 (ix4 b h r d)) (fun j d => x1 (ix4 b h j d)) (fun j => x3 (ix4 b h r j))
          (fun j => x4 (ix4 b (0 : Fin 1) r j)) j := by
  have el : ∀ k : Fin 64, lidx_main_v2 (ix4 b h r j) k = ix4 b h r k := fun k => funext fun a => Fin.ext (by
    match a with | ⟨0, _⟩ => rfl | ⟨1, _⟩ => rfl | ⟨2, _⟩ => rfl | ⟨3, _⟩ => rfl)
  have er : ∀ k : Fin 64, ridx_main_v2 (ix4 b h r j) k = ix4 b h j k := fun k => funext fun a => Fin.ext (by
    match a with | ⟨0, _⟩ => rfl | ⟨1, _⟩ => rfl | ⟨2, _⟩ => rfl | ⟨3, _⟩ => rfl)
  have em : idx_main_call0_v1 (ix4 b h r j) = ix4 b (0 : Fin 1) r j := funext fun a => Fin.ext (by
    match a with | ⟨0, _⟩ => rfl | ⟨1, _⟩ => rfl | ⟨2, _⟩ => rfl | ⟨3, _⟩ => rfl)
  rw [val_main_v6_apply, val_main_call0_v1_apply, val_main_v5_apply, val_main_v4_apply, val_main_c_apply,
    val_main_call0_v2_apply, val_main_call0_v0_apply, val_main_cst_0_apply, val_main_v3_apply, val_main_v2_apply, em]
  unfold Cert.Attn.scoreRow
  simp only [Ideal.mulf_def, Ideal.ofBits_def, scaled_query, el, er]

/-! ## The row maximum -/

/-- The key axis of the score array is the one axis the two reductions run over. -/
theorem keyAxis : S4x8x1024x1024.Reduces [3] S4x8x1024 := by decide

/-- Row (b, h, r) with key k put back on the key axis is (b, h, r, k). -/
theorem lift_row (b : Fin 4) (h : Fin 8) (r : Fin 1024) (k : Fin 1024) :
    keyAxis.lift (ix3 b h r) k = ix4 b h r k := by
  funext a; apply Fin.ext
  match a with | ⟨0, _⟩ => rfl | ⟨1, _⟩ => rfl | ⟨2, _⟩ => rfl | ⟨3, _⟩ => rfl

/-- The maximum the reference reduces row (b, h, r) to: the fold of max from the word for −∞ over the
    row's 1024 scores. -/
theorem reduceMax_eq (b : Fin 4) (h : Fin 8) (r : Fin 1024) :
    val_main_v7 (F := Ideal) x0 x1 x3 x4 (ix3 b h r)
      = Cert.Attn.rowMax (fun j => val_main_v6 (F := Ideal) x0 x1 x3 x4 (ix4 b h r j)) := by
  unfold val_main_v7 Cert.Attn.rowMax
  rw [Host.reduce_eq_fold_single FloatOps.maximumf _ _ reducesTo_S4x8x1024x1024_S4x8x1024_d3 keyAxis h_S_]
  have hf : (val_main_v6 (F := Ideal) x0 x1 x3 x4 ∘ keyAxis.lift (ix3 b h r))
      = fun j : Fin 1024 => val_main_v6 (F := Ideal) x0 x1 x3 x4 (ix4 b h r j) :=
    funext fun k => congrArg (val_main_v6 (F := Ideal) x0 x1 x3 x4) (lift_row b h r k)
  exact congrArg (fun f => Finset.fold max (Ideal.ofBits .f32 0xFF800000#32) f (Finset.univ : Finset (Fin 1024))) hf

/-- The further maximum with the word for −∞ changes nothing: the fold starts at that word, so it is above it. -/
theorem rowMax_eq (b : Fin 4) (h : Fin 8) (r : Fin 1024) :
    val_main_v9 (F := Ideal) x0 x1 x3 x4 (ix3 b h r)
      = Cert.Attn.rowMax (fun j => val_main_v6 (F := Ideal) x0 x1 x3 x4 (ix4 b h r j)) := by
  rw [val_main_v9_apply, val_main_v8_apply, val_main_cst_2_apply, reduceMax_eq, Ideal.maximumf_def, Ideal.ofBits_def]
  exact max_eq_right ((Finset.le_fold_max _).mpr (Or.inl le_rfl))

/-! ## The softmax of a row -/

/-- The shifted exponential at (b, h, r, j) is the specification's, of the row of scores. -/
theorem rowExp_eq (b : Fin 4) (h : Fin 8) (r j : Fin 1024) :
    val_main_v13 (F := Ideal) x0 x1 x3 x4 (ix4 b h r j)
      = Cert.Attn.rowExp (fun j => val_main_v6 (F := Ideal) x0 x1 x3 x4 (ix4 b h r j)) j := by
  have e : idx_main_v10 (idx_main_v11 (ix4 b h r j)) = ix3 b h r := funext fun a => Fin.ext (by
    match a with | ⟨0, _⟩ => rfl | ⟨1, _⟩ => rfl | ⟨2, _⟩ => rfl)
  rw [val_main_v13_apply, val_main_v12_apply, val_main_v11_apply, val_main_v10_apply, e, rowMax_eq,
    Ideal.hostUnary_exp_def, Ideal.subf_def]
  rfl

/-- The sum of a row's exponentials: the reference starts it at the zero word, which denotes 0. -/
theorem rowSum_eq (b : Fin 4) (h : Fin 8) (r : Fin 1024) :
    val_main_v14 (F := Ideal) x0 x1 x3 x4 (ix3 b h r)
      = ∑ j' : Fin 1024, Cert.Attn.rowExp (fun j => val_main_v6 (F := Ideal) x0 x1 x3 x4 (ix4 b h r j)) j' := by
  have e : ∀ k : Fin 1024, idx_main_v14 (ix3 b h r) k = ix4 b h r k := fun k => funext fun a => Fin.ext (by
    match a with | ⟨0, _⟩ => rfl | ⟨1, _⟩ => rfl | ⟨2, _⟩ => rfl | ⟨3, _⟩ => rfl)
  rw [val_main_v14_apply, val_main_cst_3_apply, Ideal.ofBits_def, Ideal.ofBits_zero_f32, zero_add]
  exact Finset.sum_congr rfl fun k _ => by rw [e k, rowExp_eq]

/-- The probability at (b, h, r, j) is the specification's softmax of the row of scores. -/
theorem rowSoft_eq (b : Fin 4) (h : Fin 8) (r j : Fin 1024) :
    val_main_v17 (F := Ideal) x0 x1 x3 x4 (ix4 b h r j)
      = Cert.Attn.rowSoft (fun j => val_main_v6 (F := Ideal) x0 x1 x3 x4 (ix4 b h r j)) j := by
  have e : idx_main_v15 (idx_main_v16 (ix4 b h r j)) = ix3 b h r := funext fun a => Fin.ext (by
    match a with | ⟨0, _⟩ => rfl | ⟨1, _⟩ => rfl | ⟨2, _⟩ => rfl)
  rw [val_main_v17_apply, val_main_v16_apply, val_main_v15_apply, e, rowSum_eq, rowExp_eq, Ideal.hostDivf_def]
  rfl

/-! ## The two results -/

/-- The reference's probabilities are the specification's. -/
theorem probs_eq (x0 x1 : Cert.Attn.SQ.Idx → EReal) (x3 : Cert.Attn.SS.Idx → EReal) (x4 : Cert.Attn.SM.Idx → BitVec 32) :
    Cert.ReferenceIdeal.Read.val_main_v17 (F := Ideal) x0 x1 x3 x4 = Cert.Attn.probs x0 x1 x3 x4 := by
  funext i
  obtain ⟨b, h, r, j, rfl⟩ : ∃ (b : Fin 4) (h : Fin 8) (r j : Fin 1024), i = ix4 b h r j :=
    ⟨i 0, i 1, i 2, i 3, eq_ix4 i⟩
  rw [rowSoft_eq, funext (score_eq x0 x1 x3 x4 b h r)]
  rfl

/-- The reference's output is the specification's. -/
theorem output_eq (x0 x1 x2 : Cert.Attn.SQ.Idx → EReal) (x3 : Cert.Attn.SS.Idx → EReal) (x4 : Cert.Attn.SM.Idx → BitVec 32) :
    Cert.ReferenceIdeal.Read.val_main_v18 (F := Ideal) x0 x1 x2 x3 x4 = Cert.Attn.output x0 x1 x2 x3 x4 := by
  funext i
  obtain ⟨b, h, r, d, rfl⟩ : ∃ (b : Fin 4) (h : Fin 8) (r : Fin 1024) (d : Fin 64), i = ix4 b h r d :=
    ⟨i 0, i 1, i 2, i 3, eq_ix4 i⟩
  have el : ∀ k : Fin 1024, lidx_main_v18 (ix4 b h r d) k = ix4 b h r k := fun k => funext fun a => Fin.ext (by
    match a with | ⟨0, _⟩ => rfl | ⟨1, _⟩ => rfl | ⟨2, _⟩ => rfl | ⟨3, _⟩ => rfl)
  have er : ∀ k : Fin 1024, ridx_main_v18 (ix4 b h r d) k = ix4 b h k d := fun k => funext fun a => Fin.ext (by
    match a with | ⟨0, _⟩ => rfl | ⟨1, _⟩ => rfl | ⟨2, _⟩ => rfl | ⟨3, _⟩ => rfl)
  rw [val_main_v18_apply, probs_eq]
  unfold Cert.Attn.output Cert.Attn.outRow
  refine Finset.sum_congr rfl fun k _ => ?_
  rw [el k, er k]
  rfl

end Cert.AttnRef

end
-- ==== Proof.lean ====
/-
  Masked, re-weighted softmax attention: a tiled kernel against the plain program, on the extended reals.

  Both programs take queries, keys and values `[4, 8, 1024, 64]`, weights `[4, 8, 1024, 1024]` and an integer mask
  `[4, 1, 1024, 1024]`, and return the attention output and the attention probabilities. For each batch `b`, head
  `h` and query row `r` the row of scores is `(Σ_d (q d · c) · k j d) · w j`, replaced by a large negative constant
  where the mask word is zero; the probabilities are `exp (s j − max s)` over the sum of those exponentials, and the
  output is their combination of the values (the specification, `Cert.Attn`).

  The kernel computes this in 64 grid points, each holding 512 query rows of one `(b, h)` with all that pair's keys and
  values; a row's result depends on no other row, so each written block is a block of the specification's arrays and
  the blocks tile them. The reference computes it with whole-array operations; it differs in spelling only: it divides
  the queries by 8 where the kernel multiplies by 1/8 (the same function on every extended real), it takes a further
  maximum of the row maximum with `−∞` (the identity on a fold that starts there), and it starts the row sum from a zero.
  No step needs the inputs to be finite. The idealization rewrote nothing, so what it preserves is trivially kept.
-/
import proofs.«146716_j66151086293333_2_alg».proof.Defs
import proofs.«146716_j66151086293333_2_alg».proof.Proof.Gen.Kernel
import proofs.«146716_j66151086293333_2_alg».proof.Proof.Gen.Kernel.Skeleton
import proofs.«146716_j66151086293333_2_alg».proof.Proof.Gen.Kernel.Launch
import proofs.«146716_j66151086293333_2_alg».proof.Proof.Gen.Kernel.Points
import proofs.«146716_j66151086293333_2_alg».proof.Proof.Gen.Kernel.Frame
import proofs.«146716_j66151086293333_2_alg».proof.Proof.Gen.KernelIdeal
import proofs.«146716_j66151086293333_2_alg».proof.Proof.Gen.KernelIdeal.Skeleton
import proofs.«146716_j66151086293333_2_alg».proof.Proof.Gen.KernelIdeal.Launch
import proofs.«146716_j66151086293333_2_alg».proof.Proof.Gen.KernelIdeal.Points
import proofs.«146716_j66151086293333_2_alg».proof.Proof.Gen.KernelIdeal.Frame
import proofs.«146716_j66151086293333_2_alg».proof.Proof.Gen.ReferenceIdeal
import proofs.«146716_j66151086293333_2_alg».proof.Proof.Gen.Pre_finite_inputs
import proofs.«146716_j66151086293333_2_alg».proof.Proof.Gen.KernelIdeal.Value
import proofs.«146716_j66151086293333_2_alg».proof.Proof.Gen.ReferenceIdeal.Run
import proofs.«146716_j66151086293333_2_alg».proof.Proof.Gen.ReferenceIdeal.Read
import proofs.«146716_j66151086293333_2_alg».proof.Proof.AttnSpec
import proofs.«146716_j66151086293333_2_alg».proof.Proof.AttnBlocks
import proofs.«146716_j66151086293333_2_alg».proof.Proof.AttnRef
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The reference runs and leaves its arguments unchanged: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the five arguments both programs end with the output array at the specification's
    `output` and the probabilities' array at its `probs` of those arguments. -/
theorem algebraic : Cert.algebraic_KernelIdeal_ReferenceIdeal := by
  intro m ρ m' ρ' _ hagree
  refine ⟨_, _, Cert.AttnBlocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v18_eq, Cert.AttnRef.output_eq, (hagree c).1, (hagree c).2.1, (hagree c).2.2.1,
      (hagree c).2.2.2.1, (hagree c).2.2.2.2]
  · rw [Cert.ReferenceIdeal.Read.val_main_v17_eq, Cert.AttnRef.probs_eq, (hagree c).1, (hagree c).2.1,
      (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
